-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S144x16 : Shape := ⟨2, ![144, 16]⟩
abbrev S16 : Shape := ⟨1, ![16]⟩
abbrev S16x48 : Shape := ⟨2, ![16, 48]⟩
abbrev S48 : Shape := ⟨1, ![48]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S144x16 : S_.BroadcastsInDim S144x16 (![] : Fin 0 → Fin S144x16.rank)
  reducesTo_S144x16_S_d0_1 : S144x16.ReducesTo [0, 1] S_
  bcast_S_S16 : S_.BroadcastsInDim S16 (![] : Fin 0 → Fin S16.rank)
  reducesTo_S16_S_d0 : S16.ReducesTo [0] S_
  bcast_S_S16x48 : S_.BroadcastsInDim S16x48 (![] : Fin 0 → Fin S16x48.rank)
  reducesTo_S16x48_S_d0_1 : S16x48.ReducesTo [0, 1] S_
  bcast_S_S48 : S_.BroadcastsInDim S48 (![] : Fin 0 → Fin S48.rank)
  reducesTo_S48_S_d0 : S48.ReducesTo [0] S_

variable [Facts]

def fn_part1 {F : FTy → Type} [FloatOps F] (main_arg6 : FVec F S48 .f32) (main_v13 : IVec S_ 1) (main_v16 : IVec S16x48 1) : IVec S_ 1 :=
  let main_c_5 : IVec S_ 1 := constantI S_ 1 1#1
  let main_v17 : IVec S_ 1 := (fun x v => Host.reduce IntOp.andi x v reducesTo_S16x48_S_d0_1 h_S_) main_v16 main_c_5
  let main_v18 : IVec S_ 1 := andi main_v13 main_v17
  let main_v19 : FVec F S48 .f32 := Host.absf main_arg6
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  main_v23

def fn {F : FTy → Type} [FloatOps F] (main_arg0 : FVec F S100000x48 .f32) (main_arg1 : IVec S2x1600000 32) (main_arg2 : IVec S2x1600000 32) (main_arg3 : FVec F S144x16 .f32) (main_arg4 : FVec F S16 .f32) (main_arg5 : FVec F S16x48 .f32) (main_arg6 : FVec F S48 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S144x16 .f32 := Host.absf main_arg3
  let main_cst_0 : FVec F S_ .f32 := constant S_ .f32 0x7F800000#32
  let main_v5 : FVec F S144x16 .f32 := broadcastInDim S144x16 ![] bcast_S_S144x16 main_cst_0
  let main_v6 : IVec S144x16 1 := cmpf .olt main_v4 main_v5
  let main_c_1 : IVec S_ 1 := constantI S_ 1 1#1
  let main_v7 : IVec S_ 1 := (fun x v => Host.reduce IntOp.andi x v reducesTo_S144x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x48 .f32 := Host.absf main_arg5
  let main_cst_4 : FVec F S_ .f32 := constant S_ .f32 0x7F800000#32
  let main_v15 : FVec F S16x48 .f32 := broadcastInDim S16x48 ![] bcast_S_S16x48 main_cst_4
  let main_v16 : IVec S16x48 1 := cmpf .olt main_v14 main_v15
  fn_part1 (F := F) main_arg6 main_v13 main_v16
-- ==== Kernel.lean ====
abbrev S100000x48 : Shape := ⟨2, ![100000, 48]⟩
abbrev S2x1600000 : Shape := ⟨2, ![2, 1600000]⟩
abbrev S144x16 : Shape := ⟨2, ![144, 16]⟩
abbrev S16 : Shape := ⟨1, ![16]⟩
abbrev S16x48 : Shape := ⟨2, ![16, 48]⟩
abbrev S48 : Shape := ⟨1, ![48]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S48x16 : Shape := ⟨2, ![48, 16]⟩
abbrev S5000x48 : Shape := ⟨2, ![5000, 48]⟩
abbrev S5000x16 : Shape := ⟨2, ![5000, 16]⟩
abbrev S1x16 : Shape := ⟨2, ![1, 16]⟩
abbrev S1x48 : Shape := ⟨2, ![1, 48]⟩
abbrev S5000 : Shape := ⟨1, ![5000]⟩
abbrev S5000x1 : Shape := ⟨2, ![5000, 1]⟩

abbrev nBuf : Space → Nat
  | .hbm => 45
  | .vmem => 14
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S2x1600000, .i32⟩
  | .hbm, ⟨3, _⟩ => ⟨S144x16, .f32⟩
  | .hbm, ⟨4, _⟩ => ⟨S16, .f32⟩
  | .hbm, ⟨5, _⟩ => ⟨S16x48, .f32⟩
  | .hbm, ⟨6, _⟩ => ⟨S48, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x48, .f32⟩
  | .hbm, ⟨20, _⟩ => ⟨S_, .f32⟩
  | .hbm, ⟨21, _⟩ => ⟨S100000x48, .f32⟩
  | .hbm, ⟨22, _⟩ => ⟨S1600000x1, .i32⟩
  | .hbm, ⟨23, _⟩ => ⟨S100000x48, .f32⟩
  | .hbm, ⟨24, _⟩ => ⟨S1x1600000, .i32⟩
  | .hbm, ⟨25, _⟩ => ⟨S1600000, .i32⟩
  | .hbm, ⟨26, _⟩ => ⟨S1x1600000, .i32⟩
  | .hbm, ⟨27, _⟩ => ⟨S1600000, .i32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x48, .f32⟩
  | .hbm, ⟨37, _⟩ => ⟨S_, .f32⟩
  | .hbm, ⟨38, _⟩ => ⟨S100000x48, .f32⟩
  | .hbm, ⟨39, _⟩ => ⟨S1600000x1, .i32⟩
  | .hbm, ⟨40, _⟩ => ⟨S100000x48, .f32⟩
  | .hbm, ⟨41, _⟩ => ⟨S48x16, .f32⟩
  | .hbm, ⟨42, _⟩ => ⟨S48x16, .f32⟩
  | .hbm, ⟨43, _⟩ => ⟨S48x16, .f32⟩
  | .hbm, ⟨44, _⟩ => ⟨S100000x48, .f32⟩
  | .local _ .vmem, ⟨0, _⟩ => ⟨S5000x48, .f32⟩
  | .local _ .vmem, ⟨1, _⟩ => ⟨S5000x48, .f32⟩
  | .local _ .vmem, ⟨2, _⟩ => ⟨S5000x48, .f32⟩
  | .local _ .vmem, ⟨3, _⟩ => ⟨S5000x48, .f32⟩
  | .local _ .vmem, ⟨4, _⟩ => ⟨S5000x48, .f32⟩
  | .local _ .vmem, ⟨5, _⟩ => ⟨S5000x48, .f32⟩
  | .local _ .vmem, ⟨6, _⟩ => ⟨S48x16, .f32⟩
  | .local _ .vmem, ⟨7, _⟩ => ⟨S48x16, .f32⟩
  | .local _ .vmem, ⟨8, _⟩ => ⟨S48x16, .f32⟩
  | .local _ .vmem, ⟨9, _⟩ => ⟨S16, .f32⟩
  | .local _ .vmem, ⟨10, _⟩ => ⟨S16x48, .f32⟩
  | .local _ .vmem, ⟨11, _⟩ => ⟨S48, .f32⟩
  | .local _ .vmem, ⟨12, _⟩ => ⟨S5000x48, .f32⟩
  | .local _ .vmem, ⟨13, _⟩ => ⟨S5000x48, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S48x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x48 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  slices_S144x16_S48x16_0_0 : S144x16.Slices ![0, 0] S48x16
  slices_S144x16_S48x16_48_0 : S144x16.Slices ![48, 0] S48x16
  slices_S144x16_S48x16_96_0 : S144x16.Slices ![96, 0] S48x16
  inb_S5000x48_S5000x48_0_0 : ∀ a, (![0, 0] : Fin 2 → Nat) a + S5000x48.size a ≤ S5000x48.size a
  h_S5000x48 : 0 < S5000x48.numel
  bitsLt_bf16_f32 : FTy.bits .bf16 < FTy.bits .f32
  shapeCasts_S5000x48_S5000x48 : S5000x48.ShapeCasts S5000x48
  inb_S48x16_S48x16_0_0 : ∀ a, (![0, 0] : Fin 2 → Nat) a + S48x16.size a ≤ S48x16.size a
  h_S48x16 : 0 < S48x16.numel
  shapeCasts_S48x16_S48x16 : S48x16.ShapeCasts S48x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x48_S16x48_0_0 : ∀ a, (![0, 0] : Fin 2 → Nat) a + S16x48.size a ≤ S16x48.size a
  h_S16x48 : 0 < S16x48.numel
  inb_S48_S48_0 : ∀ a, (![0] : Fin 1 → Nat) a + S48.size a ≤ S48.size a
  h_S48 : 0 < S48.numel
  shapeCasts_S48_S1x48 : S48.ShapeCasts S1x48
  broadcasts_S1x48_S5000x48 : S1x48.Broadcasts S5000x48
  reduces_S5000x48_S5000 : S5000x48.Reduces [1] S5000
  shapeCasts_S5000_S5000x1 : S5000.ShapeCasts S5000x1
  broadcasts_S5000x1_S5000x48 : S5000x1.Broadcasts S5000x48
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S5000x48_S48x16_S5000x16_1_0_0_1_n_n_wf : DotDims.WF S5000x48 S48x16 S5000x16 [1] [0] [0] [1] [] []
  dot_S5000x16_S16x48_S5000x48_1_0_0_1_n_n_wf : DotDims.WF S5000x16 S16x48 S5000x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x48.size a ≤ S100000x48.size a
  hwx0_2 : ∀ i : grid0.Coords, EltTy.bits .f32 = 32 ∨ (Rect.block (s := S100000x48) S5000x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x16.size a ≤ S48x16.size a
  hwx0_3 : ∀ i : grid0.Coords, EltTy.bits .f32 = 32 ∨ (Rect.block (s := S48x16) S48x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x16.size a ≤ S48x16.size a
  hwx0_4 : ∀ i : grid0.Coords, EltTy.bits .f32 = 32 ∨ (Rect.block (s := S48x16) S48x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S48x16.size a ≤ S48x16.size a
  hwx0_5 : ∀ i : grid0.Coords, EltTy.bits .f32 = 32 ∨ (Rect.block (s := S48x16) S48x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x48.size a ≤ S16x48.size a
  hwx0_7 : ∀ i : grid0.Coords, EltTy.bits .f32 = 32 ∨ (Rect.block (s := S16x48) S16x48.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S48.size a ≤ S48.size a
  hwx0_8 : ∀ i : grid0.Coords, EltTy.bits .f32 = 32 ∨ (Rect.block (s := S48) S48.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x48.size a ≤ S100000x48.size a
  hwx0_9 : ∀ i : grid0.Coords, EltTy.bits .f32 = 32 ∨ (Rect.block (s := S100000x48) S5000x48.size (cc0_transform_9 i) (hinb0_9 i)).WholeWords (EltTy.packing .f32)

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S5000x48_S48x16_S5000x16_1_0_0_1_n_n : DotDims S5000x48 S48x16 S5000x16 where
  lhsContracting := [1]
  rhsContracting := [0]
  lhsNonContracting := [0]
  rhsNonContracting := [1]
  lhsBatch := []
  rhsBatch := []
  wf := dot_S5000x48_S48x16_S5000x16_1_0_0_1_n_n_wf
def dot_S5000x16_S16x48_S5000x48_1_0_0_1_n_n : DotDims S5000x16 S16x48 S5000x48 where
  lhsContracting := [1]
  rhsContracting := [0]
  lhsNonContracting := [0]
  rhsNonContracting := [1]
  lhsBatch := []
  rhsBatch := []
  wf := dot_S5000x16_S16x48_S5000x48_1_0_0_1_n_n_wf

abbrev win0_0 : Pipeline.Window sig grid0 :=
  Pipeline.Window.ofSpec (Memref.whole main_arg0) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x48.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S48x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S48x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S48x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S16x48.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S48.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S5000x48.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S144x16 : Shape := ⟨2, ![144, 16]⟩
abbrev S16 : Shape := ⟨1, ![16]⟩
abbrev S16x48 : Shape := ⟨2, ![16, 48]⟩
abbrev S48 : Shape := ⟨1, ![48]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S100000x144 : Shape := ⟨2, ![100000, 144]⟩
abbrev S100000x16 : Shape := ⟨2, ![100000, 16]⟩
abbrev S1x16 : Shape := ⟨2, ![1, 16]⟩
abbrev S1x48 : Shape := ⟨2, ![1, 48]⟩
abbrev S100000 : Shape := ⟨1, ![100000]⟩
abbrev S100000x1 : Shape := ⟨2, ![100000, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S2x1600000, .i32⟩
  | .hbm, ⟨3, _⟩ => ⟨S144x16, .f32⟩
  | .hbm, ⟨4, _⟩ => ⟨S16, .f32⟩
  | .hbm, ⟨5, _⟩ => ⟨S16x48, .f32⟩
  | .hbm, ⟨6, _⟩ => ⟨S48, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x48, .f32⟩
  | .hbm, ⟨20, _⟩ => ⟨S_, .f32⟩
  | .hbm, ⟨21, _⟩ => ⟨S100000x48, .f32⟩
  | .hbm, ⟨22, _⟩ => ⟨S1600000x1, .i32⟩
  | .hbm, ⟨23, _⟩ => ⟨S100000x48, .f32⟩
  | .hbm, ⟨24, _⟩ => ⟨S1x1600000, .i32⟩
  | .hbm, ⟨25, _⟩ => ⟨S1600000, .i32⟩
  | .hbm, ⟨26, _⟩ => ⟨S1x1600000, .i32⟩
  | .hbm, ⟨27, _⟩ => ⟨S1600000, .i32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x48, .f32⟩
  | .hbm, ⟨37, _⟩ => ⟨S_, .f32⟩
  | .hbm, ⟨38, _⟩ => ⟨S100000x48, .f32⟩
  | .hbm, ⟨39, _⟩ => ⟨S1600000x1, .i32⟩
  | .hbm, ⟨40, _⟩ => ⟨S100000x48, .f32⟩
  | .hbm, ⟨41, _⟩ => ⟨S100000x144, .f32⟩
  | .hbm, ⟨42, _⟩ => ⟨S100000x16, .f32⟩
  | .hbm, ⟨43, _⟩ => ⟨S1x16, .f32⟩
  | .hbm, ⟨44, _⟩ => ⟨S100000x16, .f32⟩
  | .hbm, ⟨45, _⟩ => ⟨S100000x16, .f32⟩
  | .hbm, ⟨46, _⟩ => ⟨S100000x16, .f32⟩
  | .hbm, ⟨47, _⟩ => ⟨S100000x48, .f32⟩
  | .hbm, ⟨48, _⟩ => ⟨S1x48, .f32⟩
  | .hbm, ⟨49, _⟩ => ⟨S100000x48, .f32⟩
  | .hbm, ⟨50, _⟩ => ⟨S100000x48, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x48, .f32⟩
  | .hbm, ⟨58, _⟩ => ⟨S100000x48, .f32⟩
  | .hbm, ⟨59, _⟩ => ⟨S100000x48, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S100000x48, .f32⟩
  | .hbm, ⟨64, _⟩ => ⟨S100000x48, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x48 : S_.BroadcastsInDim S100000x48 (![] : Fin 0 → Fin S100000x48.rank)
  concatenates_S100000x48_S100000x48_S100000x48_S100000x144_d1 : Shape.Concatenates [S100000x48, S100000x48, S100000x48] S100000x144 1
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  reducesTo_S100000x48_S100000_d1 : S100000x48.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x144_S144x16_S100000x16_1_0_0_1_n_n_wf : DotDims.WF S100000x144 S144x16 S100000x16 [1] [0] [0] [1] [] []
  dot_S100000x16_S16x48_S100000x48_1_0_0_1_n_n_wf : DotDims.WF S100000x16 S16x48 S100000x48 [1] [0] [0] [1] [] []

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x144_S144x16_S100000x16_1_0_0_1_n_n : DotDims S100000x144 S144x16 S100000x16 where
  lhsContracting := [1]
  rhsContracting := [0]
  lhsNonContracting := [0]
  rhsNonContracting := [1]
  lhsBatch := []
  rhsBatch := []
  wf := dot_S100000x144_S144x16_S100000x16_1_0_0_1_n_n_wf
def dot_S100000x16_S16x48_S100000x48_1_0_0_1_n_n : DotDims S100000x16 S16x48 S100000x48 where
  lhsContracting := [1]
  rhsContracting := [0]
  lhsNonContracting := [0]
  rhsNonContracting := [1]
  lhsBatch := []
  rhsBatch := []
  wf := dot_S100000x16_S16x48_S100000x48_1_0_0_1_n_n_wf

class Facts : Prop extends Facts₀ where

variable [Facts]
-- ==== Proof.Spec.lean ====
/-
  What one node's output row is, as a function on the extended reals.

  A node carries three rows of 48 features: its own (`x`), the sum of its positive neighbours' (`xp`) and the sum of its
  negative neighbours' (`xn`).  The first layer multiplies the three rows by the three 48-row bands `A`, `B`, `C` of one
  144 × 16 weight matrix, adds the three products and a bias, and takes tanh; the second layer is one more product and
  bias; the result row of 48 logits goes through a softmax shifted by the row's largest entry.

  Nothing here mentions a program.  `sum_three_bands` is the one algebraic law the two programs differ by: a sum over 144
  terms is the sum of its three bands of 48, which holds in every commutative monoid and so on the extended reals with
  no finiteness assumption.
-/
import Idealize.ShloMosaic.PureOps.Ideal
import Idealize.ShloMosaic.Lib.ValueIdx

noncomputable section

namespace Cert.NodeSoftmax

open Idealize.ShloMosaic Idealize.ShloMosaic.ValueIdx
open scoped BigOperators

/-- The value of the binary32 word of minus infinity: where both programs start their row maximum. -/
abbrev lowest : EReal := Ideal.ofBits .f32 0xFF800000#32

/-- Hidden unit `k` of a node: tanh of (x·A + xp·B) + xn·C + b1 at column `k`. -/
def hiddenRow (x xp xn : Fin 48 → EReal) (A B C : (⟨2, ![48, 16]⟩ : Shape).Idx → EReal)
    (b1 : (⟨1, ![16]⟩ : Shape).Idx → EReal) (k : Fin 16) : EReal :=
  Ideal.tanh ((((∑ j : Fin 48, x j * A (ix2 j k)) + ∑ j : Fin 48, xp j * B (ix2 j k)) + ∑ j : Fin 48, xn j * C (ix2 j k))
    + b1 (ix1 k))

/-- Logit `q` of a node: the hidden row times column `q` of the second weight matrix, plus the second bias. -/
def logitRow (x xp xn : Fin 48 → EReal) (A B C : (⟨2, ![48, 16]⟩ : Shape).Idx → EReal)
    (b1 : (⟨1, ![16]⟩ : Shape).Idx → EReal) (W2 : (⟨2, ![16, 48]⟩ : Shape).Idx → EReal)
    (b2 : (⟨1, ![48]⟩ : Shape).Idx → EReal) (q : Fin 48) : EReal :=
  (∑ k : Fin 16, hiddenRow x xp xn A B C b1 k * W2 (ix2 k q)) + b2 (ix1 q)

/-- The shift of a row's softmax: the largest of the row's entries and of `lowest`, as both programs compute it
    (a fold of max started at `lowest`, then one more max with `lowest`). -/
def rowTop (z : Fin 48 → EReal) : EReal := max lowest ((Finset.univ : Finset (Fin 48)).fold max lowest z)

/-- Entry `q` of the shifted softmax of a row of 48 logits. -/
def softmaxRow (z : Fin 48 → EReal) (q : Fin 48) : EReal :=
  Ideal.div (Ideal.exp (z q - rowTop z)) (∑ k : Fin 48, Ideal.exp (z k - rowTop z))

/-- Entry `q` of a node's output row. -/
def nodeRow (x xp xn : Fin 48 → EReal) (A B C : (⟨2, ![48, 16]⟩ : Shape).Idx → EReal)
    (b1 : (⟨1, ![16]⟩ : Shape).Idx → EReal) (W2 : (⟨2, ![16, 48]⟩ : Shape).Idx → EReal)
    (b2 : (⟨1, ![48]⟩ : Shape).Idx → EReal) (q : Fin 48) : EReal :=
  softmaxRow (logitRow x xp xn A B C b1 W2 b2) q

/-- The output for `R` nodes at once: entry `(p, q)` is `nodeRow` of row `p` of the three feature arrays. -/
def nodeSoftmax {R : ℕ} (X XP XN : (⟨2, ![R, 48]⟩ : Shape).Idx → EReal) (A B C : (⟨2, ![48, 16]⟩ : Shape).Idx → EReal)
    (b1 : (⟨1, ![16]⟩ : Shape).Idx → EReal) (W2 : (⟨2, ![16, 48]⟩ : Shape).Idx → EReal)
    (b2 : (⟨1, ![48]⟩ : Shape).Idx → EReal) : (⟨2, ![R, 48]⟩ : Shape).Idx → EReal :=
  fun i => nodeRow (fun j => X (ix2 (i 0) j)) (fun j => XP (ix2 (i 0) j)) (fun j => XN (ix2 (i 0) j)) A B C b1 W2 b2 (i 1)

theorem nodeSoftmax_ix2 {R : ℕ} (X XP XN : (⟨2, ![R, 48]⟩ : Shape).Idx → EReal) (A B C : (⟨2, ![48, 16]⟩ : Shape).Idx → EReal)
    (b1 : (⟨1, ![16]⟩ : Shape).Idx → EReal) (W2 : (⟨2, ![16, 48]⟩ : Shape).Idx → EReal)
    (b2 : (⟨1, ![48]⟩ : Shape).Idx → EReal) (p : Fin R) (q : Fin 48) :
    nodeSoftmax X XP XN A B C b1 W2 b2 (ix2 p q)
      = nodeRow (fun j => X (ix2 p j)) (fun j => XP (ix2 p j)) (fun j => XN (ix2 p j)) A B C b1 W2 b2 q := rfl

/-- Rows `o … o + 4999` of a 100000-row array, as a 5000-row array. -/
def rowsFrom (o : ℕ) (ho : o + 5000 ≤ 100000) (X : (⟨2, ![100000, 48]⟩ : Shape).Idx → EReal) :
    (⟨2, ![5000, 48]⟩ : Shape).Idx → EReal :=
  fun y => X (ix2 ⟨o + (y 0).val, by have := idx2_lt0 y; omega⟩ (y 1))

/-- The output of a block of 5000 consecutive nodes is that block of the output of all nodes: a node's row depends on
    its own three feature rows only. -/
theorem nodeSoftmax_rowsFrom (o : ℕ) (ho : o + 5000 ≤ 100000) (X XP XN : (⟨2, ![100000, 48]⟩ : Shape).Idx → EReal)
    (A B C : (⟨2, ![48, 16]⟩ : Shape).Idx → EReal) (b1 : (⟨1, ![16]⟩ : Shape).Idx → EReal)
    (W2 : (⟨2, ![16, 48]⟩ : Shape).Idx → EReal) (b2 : (⟨1, ![48]⟩ : Shape).Idx → EReal) (y : (⟨2, ![5000, 48]⟩ : Shape).Idx) :
    nodeSoftmax (R := 5000) (rowsFrom o ho X) (rowsFrom o ho XP) (rowsFrom o ho XN) A B C b1 W2 b2 y
      = nodeSoftmax (R := 100000) X XP XN A B C b1 W2 b2 (ix2 ⟨o + (y 0).val, by have := idx2_lt0 y; omega⟩ (y 1)) := rfl

/-- A sum of 144 terms is the sum of its three bands of 48 terms. -/
theorem sum_three_bands {M : Type} [AddCommMonoid M] (f : Fin 144 → M) :
    ∑ k : Fin 144, f k
      = ((∑ j : Fin 48, f ⟨j.val, Nat.lt_of_lt_of_le j.isLt (by decide)⟩)
          + ∑ j : Fin 48, f ⟨48 + j.val, by have := j.isLt; omega⟩)
        + ∑ j : Fin 48, f ⟨96 + j.val, by have := j.isLt; omega⟩ := by
  have h1 := Fin.sum_univ_add (a := 96) (b := 48) (f := f)
  have h2 := Fin.sum_univ_add (a := 48) (b := 48) (f := fun i : Fin 96 => f (Fin.castAdd 48 i))
  rw [h1, h2]
  rfl

end Cert.NodeSoftmax

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibLaneFolds.lean ====
/-
  Reductions along the lanes of an `[a, b]` array, read at a row, on the extended reals, generic in the extents:
  * `laneMax_apply` / `laneSum_apply`: a vector unit's maximum and sum along the lanes, at row `p`, are the fold of
    `max` from the starting value, and the sum, over the row's `b` entries;
  * `hostLaneMax_apply`: the host's one-operand reduction with a maximum body along the same axis is the same fold,
    started at the initial value's one element.
  A fold of `max` is taken in any order (it is commutative and associative), so neither side's traversal order matters.
-/
import Idealize.ShloMosaic.Lib.ValueIdx
import Idealize.ShloMosaic.Lib.Pipeline.Value
import Idealize.ShloMosaic.PureOps.Ideal.Laws

noncomputable section

namespace Cert.LaneFolds

open Idealize.ShloMosaic Idealize.ShloMosaic.ValueIdx
open scoped BigOperators

/-- The maximum along the lanes, at row `p`: the fold of `max` from the starting value over the row's entries. -/
theorem laneMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg (fun f : Fin b → EReal => (Finset.univ : Finset (Fin b)).fold max (Ideal.ofBits .f32 acc) f)
      (funext fun k => congrArg src (funext fun d => Fin.ext (by
        match d with
        | ⟨0, _⟩ => rfl
        | ⟨1, _⟩ => rfl))))

/-- The sum along the lanes, at row `p`: the sum of the row's entries. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The host's reduction with a maximum body along the lanes, at row `p`: the same fold, from the initial value. -/
theorem hostLaneMax_apply {a b : ℕ} {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (fun f : Fin b → EReal => (Finset.univ : Finset (Fin b)).fold max (init (Shape.Idx.first hu)) f)
      (funext fun k => congrArg x (funext fun d => Fin.ext (by
        match d with
        | ⟨0, _⟩ => rfl
        | ⟨1, _⟩ => rfl))))

end Cert.LaneFolds

end
-- ==== Proof.KernelBlock.lean ====
/-
  One block of 5000 nodes, as the kernel body computes it, read entry by entry on the extended reals.

  The body loads the block's three feature arrays `P0`, `P1`, `P2` (5000 × 48), the three 48 × 16 bands `P3`, `P4`, `P5` of
  the first weight matrix, the biases `P6`, `P8` and the second weight matrix `P7`.  Roundings to bfloat16 are the identity
  on the extended reals and a matrix product into a zero accumulator is a plain sum of products, so:
  * `logits_apply`: the value the body reduces over (its logits) is, at `(r, q)`, `logitRow` of row `r`;
  * `softmax_block`: dividing exp(z − top) by the row's sum of those, with `top` the row maximum folded from minus
    infinity, is `softmaxRow` of the row — the column cast and the broadcast along the lanes read the row's own entry;
  * `block_eq`: what the body leaves in the output block is `nodeSoftmax` of the loaded blocks.
-/
import proofs.«175622_j44942537785492_1_alg».proof.Proof.Gen.KernelIdeal.Value
import proofs.«175622_j44942537785492_1_alg».proof.Proof.Spec
import proofs.«175622_j44942537785492_1_alg».proof.Proof.LibMlpRows
import proofs.«175622_j44942537785492_1_alg».proof.Proof.LibColumns
import proofs.«175622_j44942537785492_1_alg».proof.Proof.LibLaneFolds
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.NodeSoftmax
open scoped BigOperators

/-- The body's logits at `(r, q)`: three products of row `r` with the three weight bands, summed, plus the first bias,
    through tanh, times the second weight matrix, plus the second bias. -/
theorem logits_apply (P0 P1 P2 : Vec Ideal S5000x48 .f32) (P3 P4 P5 : Vec Ideal S48x16 .f32) (P6 : Vec Ideal S16 .f32)
    (P7 : Vec Ideal S16x48 .f32) (P8 : Vec Ideal S48 .f32) (r : Fin 5000) (q : Fin 48) :
    k0_pay2 (F := Ideal) P0 P1 P2 P3 P4 P5 P6 P7 P8 (ix2 r q)
      = logitRow (fun j => P0 (ix2 r j)) (fun j => P1 (ix2 r j)) (fun j => P2 (ix2 r j)) P3 P4 P5 P6 P7 P8 q := by
  have hd1 : dot_S5000x48_S48x16_S5000x16_1_0_0_1_n_n = DotDims.plain 5000 48 16 := rfl
  have hd2 : dot_S5000x16_S16x48_S5000x48_1_0_0_1_n_n = DotDims.plain 5000 16 48 := rfl
  unfold k0_pay2
  simp only [hd1, hd2, logitRow, hiddenRow, matmul, tanh, addf_apply, truncf_apply, Cert.LibMlp.matmul_zero_plain,
    broadcastTo_1b_ab_apply, shapeCast_a_1a_apply, shapeCast_self, Ideal.tanh_def]

/-- The row maximum the body shifts by, at row `r`: the larger of minus infinity and the fold of `max` over the row. -/
theorem top_apply (Z : FVec Ideal S5000x48 .f32) (r : Fin 5000) :
    maximumf (k0_pay4 (F := Ideal)) (multiReduction .maximumf [1] S5000 Z 0xFF800000#32 reduces_S5000x48_S5000 (.inl rfl) rfl) (ix1 r)
      = rowTop (fun k => Z (ix2 r k)) :=
  congrArg (max lowest) (Cert.LaneFolds.laneMax_apply Z 0xFF800000#32 reduces_S5000x48_S5000 (.inl rfl) rfl r)

/-- The shifted softmax of the block's logits `Z` at `(r, q)`, in the body's spelling with its index functions applied. -/
theorem softmax_block (Z : FVec Ideal S5000x48 .f32) (r : Fin 5000) (q : Fin 48) :
    FloatOps.divf (FloatOps.exp (FloatOps.subf (Z (ix2 r q))
        (FloatOps.maximumf ((k0_pay4 (F := Ideal)) (ix1 r))
          ((multiReduction .maximumf [1] S5000 Z 0xFF800000#32 reduces_S5000x48_S5000 (.inl rfl) rfl) (ix1 r)))))
      ((multiReduction .add [1] S5000 (exp (subf Z (broadcastTo S5000x48 (shapeCast S5000x1
          (maximumf (k0_pay4 (F := Ideal)) (multiReduction .maximumf [1] S5000 Z 0xFF800000#32 reduces_S5000x48_S5000 (.inl rfl) rfl))
          shapeCasts_S5000_S5000x1) broadcasts_S5000x1_S5000x48))) 0x00000000#32 reduces_S5000x48_S5000 (.inl rfl) rfl) (ix1 r))
      = softmaxRow (fun k => Z (ix2 r k)) q := by
  have htop := top_apply Z r
  have hsum := Cert.LaneFolds.laneSum_apply (exp (subf Z (broadcastTo S5000x48 (shapeCast S5000x1
          (maximumf (k0_pay4 (F := Ideal)) (multiReduction .maximumf [1] S5000 Z 0xFF800000#32 reduces_S5000x48_S5000 (.inl rfl) rfl))
          shapeCasts_S5000_S5000x1) broadcasts_S5000x1_S5000x48))) 0x00000000#32 reduces_S5000x48_S5000 (.inl rfl) rfl r
  have hterm : ∀ k : Fin 48, (exp (subf Z (broadcastTo S5000x48 (shapeCast S5000x1
          (maximumf (k0_pay4 (F := Ideal)) (multiReduction .maximumf [1] S5000 Z 0xFF800000#32 reduces_S5000x48_S5000 (.inl rfl) rfl))
          shapeCasts_S5000_S5000x1) broadcasts_S5000x1_S5000x48))) (ix2 r k)
        = Ideal.exp (Z (ix2 r k) - rowTop (fun k => Z (ix2 r k))) := fun k => by
    show Ideal.exp (Z (ix2 r k) - _) = _
    rw [Cert.Columns.broadcastTo_a1_ab_apply, Cert.Columns.shapeCast_a_a1_apply, htop]
  rw [hsum]
  simp only [hterm]
  show Ideal.div (Ideal.exp (Z (ix2 r q) - (maximumf (k0_pay4 (F := Ideal)) (multiReduction .maximumf [1] S5000 Z 0xFF800000#32 reduces_S5000x48_S5000 (.inl rfl) rfl) (ix1 r)))) _ = _
  rw [htop]
  rfl

/-- What the body leaves at `(r, q)` of its output block: the output row of node `r` of the block, at `q`. -/
theorem block_apply (P0 P1 P2 : Vec Ideal S5000x48 .f32) (P3 P4 P5 : Vec Ideal S48x16 .f32) (P6 : Vec Ideal S16 .f32)
    (P7 : Vec Ideal S16x48 .f32) (P8 : Vec Ideal S48 .f32) (r : Fin 5000) (q : Fin 48) :
    Cert.KernelIdeal.Value.E9 (F := Ideal) P0 P1 P2 P3 P4 P5 P6 P7 P8 (ix2 r q)
      = nodeRow (fun j => P0 (ix2 r j)) (fun j => P1 (ix2 r j)) (fun j => P2 (ix2 r j)) P3 P4 P5 P6 P7 P8 q := by
  have e0 : Cert.KernelIdeal.Value.ix9_0 (ix2 r q) = ix2 r q :=
    funext fun a => Fin.ext (by match a with | ⟨0, _⟩ => rfl | ⟨1, _⟩ => rfl)
  have e1 : Cert.KernelIdeal.Value.ix9_1 (ix2 r q) = ix1 r := funext fun a => Fin.ext (by match a with | ⟨0, _⟩ => rfl)
  have e2 : Cert.KernelIdeal.Value.ix9_2 (ix2 r q) = ix1 r := funext fun a => Fin.ext (by match a with | ⟨0, _⟩ => rfl)
  have e3 : Cert.KernelIdeal.Value.ix9_3 (ix2 r q) = ix1 r := funext fun a => Fin.ext (by match a with | ⟨0, _⟩ => rfl)
  dsimp only [Cert.KernelIdeal.Value.E9]
  rw [e0, e1, e2, e3]
  refine (softmax_block (k0_pay2 (F := Ideal) P0 P1 P2 P3 P4 P5 P6 P7 P8) r q).trans ?_
  exact congrArg (fun z => softmaxRow z q) (funext fun k => logits_apply P0 P1 P2 P3 P4 P5 P6 P7 P8 r k)

/-- The output block as one function of the loaded blocks. -/
theorem block_eq (P0 P1 P2 : Vec Ideal S5000x48 .f32) (P3 P4 P5 : Vec Ideal S48x16 .f32) (P6 : Vec Ideal S16 .f32)
    (P7 : Vec Ideal S16x48 .f32) (P8 : Vec Ideal S48 .f32) :
    Cert.KernelIdeal.Value.E9 (F := Ideal) P0 P1 P2 P3 P4 P5 P6 P7 P8 = nodeSoftmax (R := 5000) P0 P1 P2 P3 P4 P5 P6 P7 P8 := by
  funext y
  obtain ⟨r, q, rfl⟩ : ∃ (r : Fin 5000) (q : Fin 48), y = ix2 r q := ⟨y 0, y 1, eq_ix2 y⟩
  exact block_apply P0 P1 P2 P3 P4 P5 P6 P7 P8 r q

end Cert.KernelIdeal.Block

end
-- ==== Proof.KernelArray.lean ====
/-
  From blocks to the whole array.

  The launch runs the body at 20 grid points; at point `t` the three feature windows stage rows `5000 t … 5000 t + 4999`
  of their arrays, the weight and bias windows stage their whole arrays, and the output window's block, rows
  `5000 t … 5000 t + 4999` of the result, is written back.  A node's output row depends on its own three feature rows only,
  so what point `t` writes back is block `t` of ONE function of the arrays as the launch finds them — `nodeSoftmax` at
  100000 rows — and the 20 blocks cover the result: after the run the result array is that function (`final`, `run`).
-/
import proofs.«175622_j44942537785492_1_alg».proof.Proof.Gen.KernelIdeal.Value
import proofs.«175622_j44942537785492_1_alg».proof.Proof.KernelBlock
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.NodeSoftmax
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- What the body leaves in the output window's buffer, from the blocks it loaded whole: their `nodeSoftmax`. -/
theorem out_eq (x0 x1 x2 : Vec Ideal S5000x48 .f32) (x3 x4 x5 : Vec Ideal S48x16 .f32) (x6 : Vec Ideal S16 .f32)
    (x7 : Vec Ideal S16x48 .f32) (x8 : Vec Ideal S48 .f32) :
    out0_9 x0 x1 x2 x3 x4 x5 x6 x7 x8 = nodeSoftmax (R := 5000) x0 x1 x2 x3 x4 x5 x6 x7 x8 := by
  funext y
  unfold out0_9
  rw [Cert.KernelIdeal.Value.canon9_eq, Cert.KernelIdeal.Block.block_eq]
  simp only [View.ld_unit_zero (S := S5000x48) hz2, View.ld_unit_zero (S := S48x16) hz2, View.ld_unit_zero (S := S16) hz1,
    View.ld_unit_zero (S := S16x48) hz2, View.ld_unit_zero (S := S48) hz1]

/-- The printed index maps over the grid: the feature windows and the output window are at block `(t, 0)`, every other
    window at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem rows_le (t : Fin cfg0.N) : 5000 * t.val + 5000 ≤ 100000 := by
  have hN : cfg0.N = 20 := N_0
  have := t.isLt
  omega

/-! ## What one grid point does, for arbitrary arrays behind the windows

Everything about a point is proved for arrays `X` that are variables: which rows of its array a window's block holds, and
what the body then writes back.  The arrays the launch really finds are put in at the very end. -/

section Point
variable (t : Fin cfg0.N)

theorem rows0 (X : S100000x48.Idx → EReal) :
    ((cfg0.win 0).blk t).view.read (Elt Ideal) X = rowsFrom (5000 * t.val) (rows_le t) X := by
  have e0 : win0_0.index t (0 : Fin 2) = t.val := (idx_facts t).1
  have e1 : win0_0.index t (1 : Fin 2) = 0 := (idx_facts t).2.1
  funext y
  show X (((cfg0.win 0).blk t).view.emb y) = X (ix2 ⟨5000 * t.val + (y 0).val, _⟩ (y 1))
  refine congrArg X (funext fun a => Fin.ext ?_)
  match a with
  | ⟨0, _⟩ => show win0_0.index t (0 : Fin 2) * 5000 + 1 * (y 0).val = 5000 * t.val + (y 0).val; rw [e0]; omega
  | ⟨1, _⟩ => show win0_0.index t (1 : Fin 2) * 48 + 1 * (y 1).val = (y 1).val; rw [e1]; omega

theorem rows1 (X : S100000x48.Idx → EReal) :
    ((cfg0.win 1).blk t).view.read (Elt Ideal) X = rowsFrom (5000 * t.val) (rows_le t) X := by
  have e0 : win0_1.index t (0 : Fin 2) = t.val := (idx_facts t).2.2.1
  have e1 : win0_1.index t (1 : Fin 2) = 0 := (idx_facts t).2.2.2.1
  funext y
  show X (((cfg0.win 1).blk t).view.emb y) = X (ix2 ⟨5000 * t.val + (y 0).val, _⟩ (y 1))
  refine congrArg X (funext fun a => Fin.ext ?_)
  match a with
  | ⟨0, _⟩ => show win0_1.index t (0 : Fin 2) * 5000 + 1 * (y 0).val = 5000 * t.val + (y 0).val; rw [e0]; omega
  | ⟨1, _⟩ => show win0_1.index t (1 : Fin 2) * 48 + 1 * (y 1).val = (y 1).val; rw [e1]; omega

theorem rows2 (X : S100000x48.Idx → EReal) :
    ((cfg0.win 2).blk t).view.read (Elt Ideal) X = rowsFrom (5000 * t.val) (rows_le t) X := by
  have e0 : win0_2.index t (0 : Fin 2) = t.val := (idx_facts t).2.2.2.2.1
  have e1 : win0_2.index t (1 : Fin 2) = 0 := (idx_facts t).2.2.2.2.2.1
  funext y
  show X (((cfg0.win 2).blk t).view.emb y) = X (ix2 ⟨5000 * t.val + (y 0).val, _⟩ (y 1))
  refine congrArg X (funext fun a => Fin.ext ?_)
  match a with
  | ⟨0, _⟩ => show win0_2.index t (0 : Fin 2) * 5000 + 1 * (y 0).val = 5000 * t.val + (y 0).val; rw [e0]; omega
  | ⟨1, _⟩ => show win0_2.index t (1 : Fin 2) * 48 + 1 * (y 1).val = (y 1).val; rw [e1]; omega

theorem whole3 (X : S48x16.Idx → EReal) : ((cfg0.win 3).blk t).view.read (Elt Ideal) X = X := by
  have e0 : win0_3.index t (0 : Fin 2) = 0 := (idx_facts t).2.2.2.2.2.2.1
  have e1 : win0_3.index t (1 : Fin 2) = 0 := (idx_facts t).2.2.2.2.2.2.2.1
  funext y
  show X (((cfg0.win 3).blk t).view.emb y) = X y
  refine congrArg X (funext fun a => Fin.ext ?_)
  match a with
  | ⟨0, _⟩ => show win0_3.index t (0 : Fin 2) * 48 + 1 * (y 0).val = (y 0).val; rw [e0]; omega
  | ⟨1, _⟩ => show win0_3.index t (1 : Fin 2) * 16 + 1 * (y 1).val = (y 1).val; rw [e1]; omega

theorem whole4 (X : S48x16.Idx → EReal) : ((cfg0.win 4).blk t).view.read (Elt Ideal) X = X := by
  have e0 : win0_4.index t (0 : Fin 2) = 0 := (idx_facts t).2.2.2.2.2.2.2.2.1
  have e1 : win0_4.index t (1 : Fin 2) = 0 := (idx_facts t).2.2.2.2.2.2.2.2.2.1
  funext y
  show X (((cfg0.win 4).blk t).view.emb y) = X y
  refine congrArg X (funext fun a => Fin.ext ?_)
  match a with
  | ⟨0, _⟩ => show win0_4.index t (0 : Fin 2) * 48 + 1 * (y 0).val = (y 0).val; rw [e0]; omega
  | ⟨1, _⟩ => show win0_4.index t (1 : Fin 2) * 16 + 1 * (y 1).val = (y 1).val; rw [e1]; omega

theorem whole5 (X : S48x16.Idx → EReal) : ((cfg0.win 5).blk t).view.read (Elt Ideal) X = X := by
  have e0 : win0_5.index t (0 : Fin 2) = 0 := (idx_facts t).2.2.2.2.2.2.2.2.2.2.1
  have e1 : win0_5.index t (1 : Fin 2) = 0 := (idx_facts t).2.2.2.2.2.2.2.2.2.2.2.1
  funext y
  show X (((cfg0.win 5).blk t).view.emb y) = X y
  refine congrArg X (funext fun a => Fin.ext ?_)
  match a with
  | ⟨0, _⟩ => show win0_5.index t (0 : Fin 2) * 48 + 1 * (y 0).val = (y 0).val; rw [e0]; omega
  | ⟨1, _⟩ => show win0_5.index t (1 : Fin 2) * 16 + 1 * (y 1).val = (y 1).val; rw [e1]; omega

theorem whole6 (X : S16.Idx → EReal) : ((cfg0.win 6).blk t).view.read (Elt Ideal) X = X := by
  have e0 : win0_6.index t (0 : Fin 1) = 0 := (idx_facts t).2.2.2.2.2.2.2.2.2.2.2.2.1
  funext y
  show X (((cfg0.win 6).blk t).view.emb y) = X y
  refine congrArg X (funext fun a => Fin.ext ?_)
  match a with
  | ⟨0, _⟩ => show win0_6.index t (0 : Fin 1) * 16 + 1 * (y 0).val = (y 0).val; rw [e0]; omega

theorem whole7 (X : S16x48.Idx → EReal) : ((cfg0.win 7).blk t).view.read (Elt Ideal) X = X := by
  have e0 : win0_7.index t (0 : Fin 2) = 0 := (idx_facts t).2.2.2.2.2.2.2.2.2.2.2.2.2.1
  have e1 : win0_7.index t (1 : Fin 2) = 0 := (idx_facts t).2.2.2.2.2.2.2.2.2.2.2.2.2.2.1
  funext y
  show X (((cfg0.win 7).blk t).view.emb y) = X y
  refine congrArg X (funext fun a => Fin.ext ?_)
  match a with
  | ⟨0, _⟩ => show win0_7.index t (0 : Fin 2) * 16 + 1 * (y 0).val = (y 0).val; rw [e0]; omega
  | ⟨1, _⟩ => show win0_7.index t (1 : Fin 2) * 48 + 1 * (y 1).val = (y 1).val; rw [e1]; omega

theorem whole8 (X : S48.Idx → EReal) : ((cfg0.win 8).blk t).view.read (Elt Ideal) X = X := by
  have e0 : win0_8.index t (0 : Fin 1) = 0 := (idx_facts t).2.2.2.2.2.2.2.2.2.2.2.2.2.2.2.1
  funext y
  show X (((cfg0.win 8).blk t).view.emb y) = X y
  refine congrArg X (funext fun a => Fin.ext ?_)
  match a with
  | ⟨0, _⟩ => show win0_8.index t (0 : Fin 1) * 48 + 1 * (y 0).val = (y 0).val; rw [e0]; omega

/-- What point `t` writes back, for any arrays behind the nine input windows: block `t` of their `nodeSoftmax`. -/
theorem point_block (X0 X1 X2 : S100000x48.Idx → EReal) (X3 X4 X5 : S48x16.Idx → EReal) (X6 : S16.Idx → EReal)
    (X7 : S16x48.Idx → EReal) (X8 : S48.Idx → EReal) :
    (cfg0.win 9).cut (grid0.coords t) (out0_9
        (((cfg0.win 0).blk t).view.read (Elt Ideal) X0) (((cfg0.win 1).blk t).view.read (Elt Ideal) X1)
        (((cfg0.win 2).blk t).view.read (Elt Ideal) X2) (((cfg0.win 3).blk t).view.read (Elt Ideal) X3)
        (((cfg0.win 4).blk t).view.read (Elt Ideal) X4) (((cfg0.win 5).blk t).view.read (Elt Ideal) X5)
        (((cfg0.win 6).blk t).view.read (Elt Ideal) X6) (((cfg0.win 7).blk t).view.read (Elt Ideal) X7)
        (((cfg0.win 8).blk t).view.read (Elt Ideal) X8))
      = ((cfg0.win 9).blk t).view.read (Elt Ideal) (nodeSoftmax (R := 100000) X0 X1 X2 X3 X4 X5 X6 X7 X8) := by
  have e0 : win0_9.index t (0 : Fin 2) = t.val := (idx_facts t).2.2.2.2.2.2.2.2.2.2.2.2.2.2.2.2.1
  have e1 : win0_9.index t (1 : Fin 2) = 0 := (idx_facts t).2.2.2.2.2.2.2.2.2.2.2.2.2.2.2.2.2
  rw [out_eq, rows0 t X0, rows1 t X1, rows2 t X2, whole3 t X3, whole4 t X4, whole5 t X5, whole6 t X6, whole7 t X7, whole8 t X8]
  funext j
  show nodeSoftmax (R := 5000) (rowsFrom (5000 * t.val) (rows_le t) X0) (rowsFrom (5000 * t.val) (rows_le t) X1)
      (rowsFrom (5000 * t.val) (rows_le t) X2) X3 X4 X5 X6 X7 X8 j
    = nodeSoftmax (R := 100000) X0 X1 X2 X3 X4 X5 X6 X7 X8 (((cfg0.win 9).blk t).view.emb j)
  refine (nodeSoftmax_rowsFrom _ _ X0 X1 X2 X3 X4 X5 X6 X7 X8 j).trans ?_
  refine congrArg (nodeSoftmax (R := 100000) X0 X1 X2 X3 X4 X5 X6 X7 X8) (funext fun a => Fin.ext ?_)
  match a with
  | ⟨0, _⟩ => show 5000 * t.val + (j 0).val = win0_9.index t (0 : Fin 2) * 5000 + 1 * (j 0).val; rw [e0]; omega
  | ⟨1, _⟩ => show (j 1).val = win0_9.index t (1 : Fin 2) * 48 + 1 * (j 1).val; rw [e1]; omega

end Point

/-! ## The result array -/

/-- The result of all 100000 nodes, from the nine arrays as the launch finds them. -/
abbrev result (c : Dev nD) : S100000x48.Idx → EReal :=
  nodeSoftmax (R := 100000) (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))

/-- What point `t` writes back is block `t` of `result`. -/
theorem flushed_eq (c : Dev nD) (t : Fin cfg0.N) :
    (dats m 0 c).flushed 9 t = ((cfg0.win 9).blk t).view.read (Elt Ideal) (result m c) := by
  rw [Cert.KernelIdeal.Value.flushed9]
  unfold iblk
  exact point_block t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))

/-- An index of the result is in point `t`'s block iff each coordinate is in the block's range on its axis. -/
theorem mem_blk (t : Fin cfg0.N) (i : S100000x48.Idx) :
    i ∈ ((cfg0.win 9).blk t).view.set ↔ ∀ a : Fin 2, win0_9.index t a * S5000x48.size a ≤ (i a).val ∧ (i a).val < win0_9.index t a * S5000x48.size a + S5000x48.size a := by
  show i ∈ ((View.whole main_v31).slice (win0_9.rect t)).set ↔ _
  rw [View.set_slice_whole, Rect.mem_set_unit]
  exact Iff.rfl

/-- Row `r` of the result is in the block of point `r / 5000`. -/
theorem cover (i : S100000x48.Idx) : ∃ t : Fin cfg0.N, (cfg0.win 9).flush t = true ∧ i ∈ ((cfg0.win 9).blk t).view.set := by
  have hN : cfg0.N = 20 := N_0
  have hi0 : (i 0).val < 100000 := (i 0).isLt
  have hi1 : (i 1).val < 48 := (i 1).isLt
  have ht : (i 0).val / 5000 < cfg0.N := by rw [hN]; omega
  obtain ⟨-, -, -, -, -, -, -, -, -, -, -, -, -, -, -, -, e0, e1⟩ := idx_facts ⟨(i 0).val / 5000, ht⟩
  refine ⟨⟨(i 0).val / 5000, ht⟩, flush0_9 _, ?_⟩
  rw [mem_blk]
  intro a
  match a with
  | ⟨0, _⟩ =>
    show win0_9.index ⟨(i 0).val / 5000, ht⟩ (0 : Fin 2) * 5000 ≤ (i 0).val ∧ (i 0).val < win0_9.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, ht⟩ (1 : Fin 2) * 48 ≤ (i 1).val ∧ (i 1).val < win0_9.index ⟨(i 0).val / 5000, ht⟩ (1 : Fin 2) * 48 + 48
    rw [e1]
    omega

/-- After the run the result array is `result`. -/
theorem final (c : Dev nD) : (dats m 0 c).arrAt 9 cfg0.N = result m c :=
  (dats m 0 c).arrAt_eq_of_cover 9 (result m c) (fun t _ => flushed_eq m c t) cover

end Cert.KernelIdeal.Whole

end
-- ==== Proof.KernelHost.lean ====
/-
  The arrays the launch finds, as terms of the program's arguments.

  Before the launch the program sums, for every node, the feature rows of its positive neighbours and of its negative
  neighbours (a gather along the edges' source nodes, then a scatter-add onto their target nodes), and cuts the first
  weight matrix into its three bands of 48 rows.  The two neighbour sums are, operation for operation, the host terms the
  reference program computes (`pos_sum`, `neg_sum`): they are carried as those terms and never opened.  The bands are read
  at an entry: band `b` at `(j, k)` is the weight matrix at `(48 b + j, k)`.
-/
import proofs.«175622_j44942537785492_1_alg».proof.Proof.Gen.KernelIdeal.Frame
import proofs.«175622_j44942537785492_1_alg».proof.Proof.Gen.ReferenceIdeal.Read
import Idealize.ShloMosaic.Lib.StableHlo.Run
import Idealize.ShloMosaic.Lib.ValueIdx
import Idealize.ShloMosaic.Lib.ValueLayout
import Idealize.ShloMosaic.Lib.Tactic

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The positive neighbours' feature sums, as the launch finds them: the reference's term of the same arguments. -/
theorem pos_sum (c : Dev nD) :
    (V m c main_v13 : S100000x48.Idx → EReal)
      = Cert.ReferenceIdeal.Read.val_main_v13 (F := Ideal) (m ((c : Thread nD τ).loc main_arg0)) (m ((c : Thread nD τ).loc main_arg1)) := by
  dsimp only [Gen.V, Gen.hostOps0]
  after_results_simp
  rfl

set_option maxHeartbeats 2000000 in
/-- The negative neighbours' feature sums likewise. -/
theorem neg_sum (c : Dev nD) :
    (V m c main_v27 : S100000x48.Idx → EReal)
      = Cert.ReferenceIdeal.Read.val_main_v27 (F := Ideal) (m ((c : Thread nD τ).loc main_arg0)) (m ((c : Thread nD τ).loc main_arg2)) := by
  dsimp only [Gen.V, Gen.hostOps0]
  after_results_simp
  rfl

set_option maxHeartbeats 2000000 in
/-- The first band of the first weight matrix, as the launch finds it. -/
theorem band0 (c : Dev nD) :
    (V m c main_v28 : S48x16.Idx → EReal)
      = extractStridedSlice S48x16 ![0, 0] (m ((c : Thread nD τ).loc main_arg3)) slices_S144x16_S48x16_0_0 := by
  dsimp only [Gen.V, Gen.hostOps0]
  after_results_simp
  try rfl

set_option maxHeartbeats 2000000 in
/-- The second band. -/
theorem band1 (c : Dev nD) :
    (V m c main_v29 : S48x16.Idx → EReal)
      = extractStridedSlice S48x16 ![48, 0] (m ((c : Thread nD τ).loc main_arg3)) slices_S144x16_S48x16_48_0 := by
  dsimp only [Gen.V, Gen.hostOps0]
  after_results_simp
  try rfl

set_option maxHeartbeats 2000000 in
/-- The third band. -/
theorem band2 (c : Dev nD) :
    (V m c main_v30 : S48x16.Idx → EReal)
      = extractStridedSlice S48x16 ![96, 0] (m ((c : Thread nD τ).loc main_arg3)) slices_S144x16_S48x16_96_0 := by
  dsimp only [Gen.V, Gen.hostOps0]
  after_results_simp
  try rfl

/-- A band of the weight matrix, cut from row `o`, reads at `(j, k)` the matrix at `(r, k)` with `r = o + j`. -/
theorem band_apply (o : ℕ) (W : S144x16.Idx → EReal) (h : S144x16.Slices ![o, 0] S48x16) (j : Fin 48) (k : Fin 16)
    (r : Fin 144) (hr : r.val = o + j.val) :
    extractStridedSlice S48x16 ![o, 0] W h (ix2 j k) = W (ix2 r k) :=
  slice2_axis0_apply o W h j k r hr

end Cert.KernelIdeal.HostSide

end
-- ==== Proof.KernelRun.lean ====
/-
  The kernel program's run, with its result stated over the program's arguments.

  After the run the result array is `nodeSoftmax` of the nine arrays the launch found (`Whole.final`); those are the
  feature argument, the two neighbour sums (the reference's own host terms of the arguments), the three bands of the
  first weight matrix, and the bias and weight arguments: `value`.
-/
import proofs.«175622_j44942537785492_1_alg».proof.Proof.KernelArray
import proofs.«175622_j44942537785492_1_alg».proof.Proof.KernelHost

noncomputable section

namespace Cert.KernelIdeal.Whole

open Cert.KernelIdeal Cert.KernelIdeal.Gen Idealize.ShloMosaic Idealize.ShloMosaic.TcCoe Idealize.SL.Sem
open Idealize.ShloMosaic.ValueIdx Cert.NodeSoftmax

variable (m : (ℓ : Loc nD τ sig) → Buf (Elt Ideal) ℓ) (ρ : Dev nD → PrngReg)

/-- `nodeSoftmax` of equal arrays is equal. -/
theorem nodeSoftmax_congr {R : ℕ} {X0 Y0 X1 Y1 X2 Y2 : (⟨2, ![R, 48]⟩ : Shape).Idx → EReal}
    {A A' B B' C C' : (⟨2, ![48, 16]⟩ : Shape).Idx → EReal} {b1 b1' : (⟨1, ![16]⟩ : Shape).Idx → EReal}
    {W2 W2' : (⟨2, ![16, 48]⟩ : Shape).Idx → EReal} {b2 b2' : (⟨1, ![48]⟩ : Shape).Idx → EReal}
    (h0 : X0 = Y0) (h1 : X1 = Y1) (h2 : X2 = Y2) (h3 : A = A') (h4 : B = B') (h5 : C = C') (h6 : b1 = b1') (h7 : W2 = W2')
    (h8 : b2 = b2') :
    nodeSoftmax X0 X1 X2 A B C b1 W2 b2 = nodeSoftmax Y0 Y1 Y2 A' B' C' b1' W2' b2' := by
  subst h0 h1 h2 h3 h4 h5 h6 h7 h8
  rfl

/-- The kernel program's result as a function of its arguments. -/
abbrev value (c : Dev nD) : S100000x48.Idx → EReal :=
  nodeSoftmax (R := 100000) (m ((c : Thread nD τ).loc main_arg0))
    (Cert.ReferenceIdeal.Read.val_main_v13 (F := Ideal) (m ((c : Thread nD τ).loc main_arg0)) (m ((c : Thread nD τ).loc main_arg1)))
    (Cert.ReferenceIdeal.Read.val_main_v27 (F := Ideal) (m ((c : Thread nD τ).loc main_arg0)) (m ((c : Thread nD τ).loc main_arg2)))
    (extractStridedSlice S48x16 ![0, 0] (m ((c : Thread nD τ).loc main_arg3)) slices_S144x16_S48x16_0_0)
    (extractStridedSlice S48x16 ![48, 0] (m ((c : Thread nD τ).loc main_arg3)) slices_S144x16_S48x16_48_0)
    (extractStridedSlice S48x16 ![96, 0] (m ((c : Thread nD τ).loc main_arg3)) slices_S144x16_S48x16_96_0)
    (m ((c : Thread nD τ).loc main_arg4)) (m ((c : Thread nD τ).loc main_arg5)) (m ((c : Thread nD τ).loc main_arg6))

/-- The nine arrays the launch finds are those of `value`. -/
theorem result_args (c : Dev nD) : result m c = value m c :=
  nodeSoftmax_congr (V_main_arg0 m c) (Cert.KernelIdeal.HostSide.pos_sum m c) (Cert.KernelIdeal.HostSide.neg_sum m c)
    (Cert.KernelIdeal.HostSide.band0 m c) (Cert.KernelIdeal.HostSide.band1 m c) (Cert.KernelIdeal.HostSide.band2 m c)
    (V_main_arg4 m c) (V_main_arg5 m c) (V_main_arg6 m c)

/-- The run: the result array ends at `value`, the arguments unchanged. -/
theorem run : θ_run defs (onTc (τ := τ) (main (F := Ideal))) ⟨m, fun _ => 0, ρ⟩ fun r => ∀ c : Dev nD,
      r.2.mem ((c : Thread nD τ).loc main_v31) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (result_args m c)), (h c).2⟩)
    (Cert.KernelIdeal.Value.run_blocks m ρ)

end Cert.KernelIdeal.Whole

end
-- ==== Proof.Reference.lean ====
/-
  The reference program's result is `nodeSoftmax`.

  The reference joins a node's three feature rows into one row of 144 entries and multiplies it by the whole first
  weight matrix: a sum of 144 products, which is the sum of its three bands of 48 (`sum_three_bands`), band `b` pairing the
  `b`-th feature row with rows `48 b … 48 b + 47` of the matrix.  Everything after that — bias, tanh, the second layer, the
  row maximum folded from minus infinity, the exponentials, their sum and the quotient — is the same arithmetic as
  `nodeRow`, read entry by entry off the generated stage lemmas.  The two neighbour sums are kept as the opaque stages
  `val_main_v13`, `val_main_v27`; the three bands `A`, `B`, `C` are any arrays that read as those rows of the matrix.
-/
import proofs.«175622_j44942537785492_1_alg».proof.Proof.Gen.ReferenceIdeal.Read
import proofs.«175622_j44942537785492_1_alg».proof.Proof.Spec
import proofs.«175622_j44942537785492_1_alg».proof.Proof.LibLaneFolds
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.NodeSoftmax
open scoped BigOperators

/-! ## Three arrays joined along the lanes, read at an entry -/

section Join
variable (X0 X1 X2 : S100000x48.Idx → EReal)
  (h : Shape.Concatenates [S100000x48, S100000x48, S100000x48] S100000x144 1)

theorem join_band0 (p : Fin 100000) (j : Fin 48) (J : S100000x144.Idx) (h0 : (J 0).val = p.val) (h1 : (J 1).val = j.val) :
    concatenate S100000x144 1 [⟨S100000x48, X0⟩, ⟨S100000x48, X1⟩, ⟨S100000x48, X2⟩] h J = X0 (ix2 p j) :=
  concatenate_apply_piece 1 [⟨S100000x48, X0⟩, ⟨S100000x48, X1⟩, ⟨S100000x48, X2⟩] h J 0 (by decide : 0 < 3) S100000x48 X0 rfl rfl 0 rfl (ix2 p j)
    (fun b hb => by
      match b with
      | ⟨0, _⟩ => exact h0.symm
      | ⟨1, _⟩ => exact absurd (Fin.ext rfl) hb)
    (by show 0 + j.val = (J 1).val; omega)

theorem join_band1 (p : Fin 100000) (j : Fin 48) (J : S100000x144.Idx) (h0 : (J 0).val = p.val) (h1 : (J 1).val = 48 + j.val) :
    concatenate S100000x144 1 [⟨S100000x48, X0⟩, ⟨S100000x48, X1⟩, ⟨S100000x48, X2⟩] h J = X1 (ix2 p j) :=
  concatenate_apply_piece 1 [⟨S100000x48, X0⟩, ⟨S100000x48, X1⟩, ⟨S100000x48, X2⟩] h J 1 (by decide : 1 < 3) S100000x48 X1 rfl rfl 48 rfl (ix2 p j)
    (fun b hb => by
      match b with
      | ⟨0, _⟩ => exact h0.symm
      | ⟨1, _⟩ => exact absurd (Fin.ext rfl) hb)
    (by show 48 + j.val = (J 1).val; omega)

theorem join_band2 (p : Fin 100000) (j : Fin 48) (J : S100000x144.Idx) (h0 : (J 0).val = p.val) (h1 : (J 1).val = 96 + j.val) :
    concatenate S100000x144 1 [⟨S100000x48, X0⟩, ⟨S100000x48, X1⟩, ⟨S100000x48, X2⟩] h J = X2 (ix2 p j) :=
  concatenate_apply_piece 1 [⟨S100000x48, X0⟩, ⟨S100000x48, X1⟩, ⟨S100000x48, X2⟩] h J 2 (by decide : 2 < 3) S100000x48 X2 rfl rfl 96 rfl (ix2 p j)
    (fun b hb => by
      match b with
      | ⟨0, _⟩ => exact h0.symm
      | ⟨1, _⟩ => exact absurd (Fin.ext rfl) hb)
    (by show 96 + j.val = (J 1).val; omega)

end Join

/-! ## The stages, entry by entry -/

section Stages
variable (x0 : (⟨S100000x48, .f32⟩ : BufTy).Contents (Elt Ideal)) (x1 x2 : (⟨S2x1600000, .i32⟩ : BufTy).Contents (Elt Ideal))
  (x3 : (⟨S144x16, .f32⟩ : BufTy).Contents (Elt Ideal)) (x4 : (⟨S16, .f32⟩ : BufTy).Contents (Elt Ideal))
  (x5 : (⟨S16x48, .f32⟩ : BufTy).Contents (Elt Ideal)) (x6 : (⟨S48, .f32⟩ : BufTy).Contents (Elt Ideal))

/-- The shift of row `p`. -/
theorem top_apply (p : Fin 100000) :
    val_main_v40 (F := Ideal) x0 x1 x2 x3 x4 x5 x6 (ix1 p)
      = rowTop (fun q => val_main_v37 (F := Ideal) x0 x1 x2 x3 x4 x5 x6 (ix2 p q)) := by
  rw [val_main_v40_apply, val_main_v39_apply]
  unfold val_main_v38
  exact congrArg (max lowest) (Cert.LaneFolds.hostLaneMax_apply _ _ _ (by decide) _ p)

/-- The exponentials at `(p, q)`. -/
theorem exps_apply (p : Fin 100000) (q : Fin 48) :
    val_main_v44 (F := Ideal) x0 x1 x2 x3 x4 x5 x6 (ix2 p q)
      = Ideal.exp (val_main_v37 (F := Ideal) x0 x1 x2 x3 x4 x5 x6 (ix2 p q)
          - rowTop (fun q => val_main_v37 (F := Ideal) x0 x1 x2 x3 x4 x5 x6 (ix2 p q))) := by
  have e : idx_main_v41 (idx_main_v42 (ix2 p q)) = ix1 p := funext fun a => Fin.ext (by match a with | ⟨0, _⟩ => rfl)
  rw [val_main_v44_apply, val_main_v43_apply, val_main_v42_apply, val_main_v41_apply, e, top_apply]
  rfl

/-- The row sums, repeated along the lanes, at `(p, q)`. -/
theorem sums_apply (p : Fin 100000) (q : Fin 48) :
    val_main_v47 (F := Ideal) x0 x1 x2 x3 x4 x5 x6 (ix2 p q)
      = ∑ k : Fin 48, val_main_v44 (F := Ideal) x0 x1 x2 x3 x4 x5 x6 (ix2 p k) := by
  have e : idx_main_v46 (idx_main_v47 (ix2 p q)) = ix1 p := funext fun a => Fin.ext (by match a with | ⟨0, _⟩ => rfl)
  have ek : ∀ k : Fin 48, idx_main_v45 (ix1 p) k = ix2 p k := fun k => funext fun a => Fin.ext (by
    match a with
    | ⟨0, _⟩ => rfl
    | ⟨1, _⟩ => rfl)
  rw [val_main_v47_apply, val_main_v46_apply, e, val_main_v45_apply]
  simp only [ek]
  show Ideal.ofBits .f32 0x00000000#32 + _ = _
  rw [Ideal.ofBits_zero_f32, zero_add]

variable (A B C : (⟨2, ![48, 16]⟩ : Shape).Idx → EReal)
  (hA : ∀ (j : Fin 48) (k : Fin 16), A (ix2 j k) = x3 (ix2 ⟨j.val, Nat.lt_of_lt_of_le j.isLt (by decide)⟩ k))
  (hB : ∀ (j : Fin 48) (k : Fin 16), B (ix2 j k) = x3 (ix2 ⟨48 + j.val, by have := j.isLt; omega⟩ k))
  (hC : ∀ (j : Fin 48) (k : Fin 16), C (ix2 j k) = x3 (ix2 ⟨96 + j.val, by have := j.isLt; omega⟩ k))
include hA hB hC

/-- The first layer's product at `(p, k)`: the three bands' sums. -/
theorem first_product (p : Fin 100000) (k : Fin 16) :
    val_main_v29 (F := Ideal) x0 x1 x2 x3 (ix2 p k)
      = ((∑ j : Fin 48, x0 (ix2 p j) * A (ix2 j k)) + ∑ j : Fin 48, val_main_v13 (F := Ideal) x0 x1 (ix2 p j) * B (ix2 j k))
        + ∑ j : Fin 48, val_main_v27 (F := Ideal) x0 x2 (ix2 p j) * C (ix2 j k) := by
  rw [val_main_v29_apply, sum_three_bands]
  unfold val_main_v28
  refine congrArg₂ (· + ·) (congrArg₂ (· + ·) ?_ ?_) ?_
  · refine Finset.sum_congr rfl fun j _ => ?_
    rw [hA j k]
    exact congrArg₂ (· * ·) (join_band0 _ _ _ _ p j _ rfl rfl) (congrArg x3 (funext fun a => Fin.ext (by
      match a with
      | ⟨0, _⟩ => rfl
      | ⟨1, _⟩ => rfl)))
  · refine Finset.sum_congr rfl fun j _ => ?_
    rw [hB j k]
    exact congrArg₂ (· * ·) (join_band1 _ _ _ _ p j _ rfl rfl) (congrArg x3 (funext fun a => Fin.ext (by
      match a with
      | ⟨0, _⟩ => rfl
      | ⟨1, _⟩ => rfl)))
  · refine Finset.sum_congr rfl fun j _ => ?_
    rw [hC j k]
    exact congrArg₂ (· * ·) (join_band2 _ _ _ _ p j _ rfl rfl) (congrArg x3 (funext fun a => Fin.ext (by
      match a with
      | ⟨0, _⟩ => rfl
      | ⟨1, _⟩ => rfl)))

/-- The hidden layer at `(p, k)`. -/
theorem hidden_apply (p : Fin 100000) (k : Fin 16) :
    val_main_v33 (F := Ideal) x0 x1 x2 x3 x4 (ix2 p k)
      = hiddenRow (fun j => x0 (ix2 p j)) (fun j => val_main_v13 (F := Ideal) x0 x1 (ix2 p j))
          (fun j => val_main_v27 (F := Ideal) x0 x2 (ix2 p j)) A B C x4 k := by
  have eb : idx_main_v30 (idx_main_v31 (ix2 p k)) = ix1 k := funext fun a => Fin.ext (by match a with | ⟨0, _⟩ => rfl)
  rw [val_main_v33_apply, val_main_v32_apply, first_product x0 x1 x2 x3 A B C hA hB hC p k, val_main_v31_apply, val_main_v30_apply, eb]
  rfl

/-- The logits at `(p, q)`. -/
theorem logits_apply (p : Fin 100000) (q : Fin 48) :
    val_main_v37 (F := Ideal) x0 x1 x2 x3 x4 x5 x6 (ix2 p q)
      = logitRow (fun j => x0 (ix2 p j)) (fun j => val_main_v13 (F := Ideal) x0 x1 (ix2 p j))
          (fun j => val_main_v27 (F := Ideal) x0 x2 (ix2 p j)) A B C x4 x5 x6 q := by
  have el : ∀ k : Fin 16, lidx_main_v34 (ix2 p q) k = ix2 p k := fun k => funext fun a => Fin.ext (by
    match a with
    | ⟨0, _⟩ => rfl
    | ⟨1, _⟩ => rfl)
  have er : ∀ k : Fin 16, ridx_main_v34 (ix2 p q) k = ix2 k q := fun k => funext fun a => Fin.ext (by
    match a with
    | ⟨0, _⟩ => rfl
    | ⟨1, _⟩ => rfl)
  have eb : idx_main_v35 (idx_main_v36 (ix2 p q)) = ix1 q := funext fun a => Fin.ext (by match a with | ⟨0, _⟩ => rfl)
  rw [val_main_v37_apply, val_main_v34_apply, val_main_v36_apply, val_main_v35_apply, eb]
  simp only [el, er, hidden_apply x0 x1 x2 x3 x4 A B C hA hB hC]
  rfl

/-- The reference's result is `nodeSoftmax` of its arguments, its two neighbour sums and the three bands. -/
theorem result_eq :
    val_main_v48 (F := Ideal) x0 x1 x2 x3 x4 x5 x6
      = nodeSoftmax (R := 100000) x0 (val_main_v13 (F := Ideal) x0 x1) (val_main_v27 (F := Ideal) x0 x2) A B C x4 x5 x6 := by
  funext i
  obtain ⟨p, q, rfl⟩ : ∃ (p : Fin 100000) (q : Fin 48), i = ix2 p q := ⟨i 0, i 1, eq_ix2 i⟩
  rw [val_main_v48_apply, sums_apply, exps_apply]
  simp only [exps_apply, logits_apply x0 x1 x2 x3 x4 x5 x6 A B C hA hB hC]
  rfl

end Stages

end Cert.ReferenceIdeal.RefValue

end
-- ==== Proof.lean ====
/-
  Two programs compute, for 100000 graph nodes with 48 features each, a softmax over a two-layer perceptron applied to
  the node's own features joined with the sums of its positive and of its negative neighbours' features.

  Both programs form the two neighbour sums by the same host operations (a gather along the edges, a scatter-add onto the
  target nodes); they are carried as one opaque term.  The kernel program then cuts the first weight matrix into three
  bands of 48 rows and, block of 5000 nodes by block, adds the three products  x·A + xp·B + xn·C ; the reference joins the
  three feature rows into one of 144 entries and multiplies by the whole matrix.  A sum of 144 products is the sum of its
  three bands of 48 — true in any commutative monoid, so on the extended reals without any finiteness —, and everything
  after it (bias, tanh, second layer, the row maximum folded from minus infinity, exponentials, their sum, the quotient)
  is the same arithmetic on both sides, with roundings to bfloat16 the identity and matrix products plain sums.
  `Cert.NodeSoftmax.nodeSoftmax` is that common function; the kernel program's result array is it block by block
  (20 blocks covering the array), the reference's is it entry by entry.
-/
import proofs.«175622_j44942537785492_1_alg».proof.Defs
import proofs.«175622_j44942537785492_1_alg».proof.Proof.Gen.Kernel
import proofs.«175622_j44942537785492_1_alg».proof.Proof.Gen.Kernel.Frame
import proofs.«175622_j44942537785492_1_alg».proof.Proof.Gen.KernelIdeal
import proofs.«175622_j44942537785492_1_alg».proof.Proof.Gen.KernelIdeal.Frame
import proofs.«175622_j44942537785492_1_alg».proof.Proof.Gen.KernelIdeal.Value
import proofs.«175622_j44942537785492_1_alg».proof.Proof.Gen.ReferenceIdeal
import proofs.«175622_j44942537785492_1_alg».proof.Proof.Gen.ReferenceIdeal.Run
import proofs.«175622_j44942537785492_1_alg».proof.Proof.Gen.ReferenceIdeal.Read
import proofs.«175622_j44942537785492_1_alg».proof.Proof.Gen.Pre_finite_inputs
import proofs.«175622_j44942537785492_1_alg».proof.Proof.KernelRun
import proofs.«175622_j44942537785492_1_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with `nodeSoftmax` of the arguments: the kernel program by its 20 blocks, the reference entry by
    entry, its 144-term products split into the three bands the kernel program multiplies by. -/
theorem algebraic : Cert.algebraic_KernelIdeal_ReferenceIdeal := by
  intro m ρ m' ρ' _ hagree
  refine ⟨fun c => Cert.KernelIdeal.Whole.value m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v48_eq, a0, a1, a2, a3, a4, a5, a6]
  exact Cert.ReferenceIdeal.RefValue.result_eq _ _ _ _ _ _ _ _ _ _
    (fun j k => slice2_axis0_apply 0 _ _ j k ⟨j.val, Nat.lt_of_lt_of_le j.isLt (by decide)⟩ (Nat.zero_add _).symm)
    (fun j k => slice2_axis0_apply 48 _ _ j k ⟨48 + j.val, by have := j.isLt; omega⟩ rfl)
    (fun j k => slice2_axis0_apply 96 _ _ j k ⟨96 + j.val, by have := j.isLt; omega⟩ rfl)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
